-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S262144x256 .f32) (main_arg1 : FVec F S256x256 .f32) (main_arg2 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256x512 : Shape := ⟨2, ![256, 512]⟩
abbrev S4096x256 : Shape := ⟨2, ![4096, 256]⟩
abbrev S4096x512 : Shape := ⟨2, ![4096, 512]⟩

abbrev nBuf : Space → Nat
  | .hbm => 8
  | .vmem => 5
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x512, .f32⟩
  | .hbm, ⟨6, _⟩ => ⟨S256x512, .bf16⟩
  | .hbm, ⟨7, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S4096x256, .f32⟩
  | .local _ .vmem, ⟨4, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x256_S256x256_1_0 : S256x256.Transposes [1, 0] S256x256
  concatenates_S256x256_S256x256_S256x512_d1 : Shape.Concatenates [S256x256, S256x256] S256x512 1
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S4096x512_o0_0_S4096x256 : S4096x512.Slices ![0, 0] S4096x256
  slices_S4096x512_o0_256_S4096x256 : S4096x512.Slices ![0, 256] S4096x256
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩

abbrev nBuf : Space → Nat
  | .hbm => 11
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S262144x256, .f32⟩
  | .hbm, ⟨5, _⟩ => ⟨S256x256, .f32⟩
  | .hbm, ⟨6, _⟩ => ⟨S262144x256, .f32⟩
  | .hbm, ⟨7, _⟩ => ⟨S262144x256, .f32⟩
  | .hbm, ⟨8, _⟩ => ⟨S262144x256, .f32⟩
  | .hbm, ⟨9, _⟩ => ⟨S262144x256, .f32⟩
  | .hbm, ⟨10, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  transposes_S256x256_S256x256_1_0 : S256x256.Transposes [1, 0] S256x256
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.Spectrum.lean ====
/-
  The log power spectrum of a batch of rows against two real tables.

  For a batch `x` of 262144 rows of length 256 and two 256 × 256 real tables `R` and `I` (the real and imaginary
  parts of a transform matrix), the entry `(b, k)` of the result is
      log ((∑ⱼ x(b,j) · R(k,j))² + (∑ⱼ x(b,j) · I(k,j))²)
  on the extended reals: row `b` of the batch is projected on row `k` of each table, and the logarithm of the sum of the
  two squared projections is taken.

  One way to compute it multiplies the batch by each table's transpose separately. Another sets the two transposes side
  by side in ONE 256 × 512 table, multiplies once, and reads the two projections off columns `k` and `256 + k` of the
  product. `fused_left` and `fused_right` say what the side-by-side table holds in each half; with them the two ways are
  the same sum term by term, so no law of the extended reals beyond `0 + s = s` is used and no entry needs to be finite.
-/
import Idealize.ShloMosaic.PureOps.Ideal
import Idealize.ShloMosaic.Lib.ValueIdx
import Idealize.ShloMosaic.Lib.Pipeline.Value

noncomputable section

namespace Cert.Spectrum

open Idealize.ShloMosaic Idealize.ShloMosaic.ValueIdx

/-- The batch's shape, a table's, and the shape of two tables side by side. -/
abbrev Rows : Shape := ⟨2, ![262144, 256]⟩
abbrev Tbl : Shape := ⟨2, ![256, 256]⟩
abbrev Fused : Shape := ⟨2, ![256, 512]⟩

/-- Column `k` of the left half of the side-by-side table, and column `k` of its right half. -/
def colL (k : Fin 256) : Fin 512 := ⟨k.val, Nat.lt_trans k.isLt (by decide)⟩
def colR (k : Fin 256) : Fin 512 := ⟨256 + k.val, by have := k.isLt; omega⟩

/-- The projection of row `b` of the batch on row `k` of a table. -/
def proj (x : FVec Ideal Rows .f32) (T : FVec Ideal Tbl .f32) (b : Fin 262144) (k : Fin 256) : EReal :=
  ∑ j : Fin 256, x (ix2 b j) * T (ix2 k j)

/-- The log power spectrum: at `(b, k)`, the logarithm of the sum of the squared projections of row `b` on row `k` of
    the two tables. -/
def logPower (x : FVec Ideal Rows .f32) (R I : FVec Ideal Tbl .f32) : FVec Ideal Rows .f32 := fun i =>
  Ideal.log (proj x R (i 0) (i 1) * proj x R (i 0) (i 1) + proj x I (i 0) (i 1) * proj x I (i 0) (i 1))

/-- A column `n < 256` of the side-by-side table is row `n` of the first table: entry `(j, n)` is `R(n, j)`. -/
theorem fused_left (R I : FVec Ideal Tbl .f32) (hT : Tbl.Transposes [1, 0] Tbl) (hC : Shape.Concatenates [Tbl, Tbl] Fused 1)
    (j : Fin 256) (n : Fin 512) (k : Fin 256) (hn : n.val = k.val) :
    concatenate Fused 1 [⟨Tbl, transpose Tbl [1, 0] R hT⟩, ⟨Tbl, transpose Tbl [1, 0] I hT⟩] hC (ix2 j n) = R (ix2 k j) := by
  rw [concatenate_pair_apply_left 1 _ _ hC (ix2 j n) rfl (ix2 j k) (fun b => by
    match b with
    | ⟨0, _⟩ => rfl
    | ⟨1, _⟩ => exact hn.symm)]
  exact transpose_apply [1, 0] R hT (ix2 j k) (ix2 k j) (fun b => match b with
    | ⟨0, _⟩ => rfl
    | ⟨1, _⟩ => rfl)

/-- A column `256 + k` of the side-by-side table is row `k` of the second table: entry `(j, 256 + k)` is `I(k, j)`. -/
theorem fused_right (R I : FVec Ideal Tbl .f32) (hT : Tbl.Transposes [1, 0] Tbl) (hC : Shape.Concatenates [Tbl, Tbl] Fused 1)
    (j : Fin 256) (n : Fin 512) (k : Fin 256) (hn : n.val = 256 + k.val) :
    concatenate Fused 1 [⟨Tbl, transpose Tbl [1, 0] R hT⟩, ⟨Tbl, transpose Tbl [1, 0] I hT⟩] hC (ix2 j n) = I (ix2 k j) := by
  rw [concatenate_pair_apply_right 1 _ _ hC (ix2 j n) rfl rfl (ix2 j k) (fun b hb => by
    match b with
    | ⟨0, _⟩ => rfl
    | ⟨1, _⟩ => exact absurd rfl hb) (by show k.val + 256 = n.val; omega)]
  exact transpose_apply [1, 0] I hT (ix2 j k) (ix2 k j) (fun b => match b with
    | ⟨0, _⟩ => rfl
    | ⟨1, _⟩ => rfl)

end Cert.Spectrum

end
-- ==== Proof.Body.lean ====
/-
  What the body computes at one entry of its output block.

  The body loads a 4096 × 256 block `x` of the batch and the whole 256 × 512 side-by-side table `w`, multiplies them into
  a zero accumulator, takes the left and the right 4096 × 256 halves of the product, squares each entry by entry, adds the
  squares and takes the logarithm. Entry `(p, n)` of the product is `∑ⱼ x(p, j) · w(j, n)`; entry `(p, k)` of the left half
  is the product's `(p, k)` and of the right half its `(p, 256 + k)`. So entry `(p, k)` of the result is
      log ((∑ⱼ x(p,j) · w(j,k))² + (∑ⱼ x(p,j) · w(j,256+k))²).
  The two changes of float format in the body are the identity on the extended reals.
-/
import proofs.«107540_j76897094468194_2_alg».proof.Proof.Gen.KernelIdeal.Skeleton
import proofs.«107540_j76897094468194_2_alg».proof.Proof.LibMatmulRead
import proofs.«107540_j76897094468194_2_alg».proof.Proof.Spectrum
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Spectrum

/-! ## Where the product's record sends an output index and a contraction index -/

/-- The left operand's row is the output's row … -/
theorem lhs0 (i : S4096x512.Idx) (q : dot_S4096x256_S256x512_S4096x512_1_0_0_1_n_n.contr.Idx) : (dot_S4096x256_S256x512_S4096x512_1_0_0_1_n_n.lhsIdx i q 0).val = (i 0).val := by
  unfold DotDims.lhsIdx
  rw [dif_neg (show ¬(0 : Fin S4096x256.rank) ∈ dot_S4096x256_S256x512_S4096x512_1_0_0_1_n_n.lhsBatch by decide), dif_pos (show (0 : Fin S4096x256.rank) ∈ dot_S4096x256_S256x512_S4096x512_1_0_0_1_n_n.lhsNonContracting by decide)]
  rfl
/-- … its column the contraction index; -/
theorem lhs1 (i : S4096x512.Idx) (q : dot_S4096x256_S256x512_S4096x512_1_0_0_1_n_n.contr.Idx) : (dot_S4096x256_S256x512_S4096x512_1_0_0_1_n_n.lhsIdx i q 1).val = (q ⟨0, by decide⟩).val :=
  dot_S4096x256_S256x512_S4096x512_1_0_0_1_n_n.lhsIdx_val_of_single rfl i q
/-- the right operand's row is the contraction index … -/
theorem rhs0 (i : S4096x512.Idx) (q : dot_S4096x256_S256x512_S4096x512_1_0_0_1_n_n.contr.Idx) : (dot_S4096x256_S256x512_S4096x512_1_0_0_1_n_n.rhsIdx i q 0).val = (q ⟨0, by decide⟩).val :=
  dot_S4096x256_S256x512_S4096x512_1_0_0_1_n_n.rhsIdx_val_of_single rfl i q
/-- … and its column the output's column. -/
theorem rhs1 (i : S4096x512.Idx) (q : dot_S4096x256_S256x512_S4096x512_1_0_0_1_n_n.contr.Idx) : (dot_S4096x256_S256x512_S4096x512_1_0_0_1_n_n.rhsIdx i q 1).val = (i 1).val := by
  unfold DotDims.rhsIdx
  rw [dif_neg (show ¬(1 : Fin S256x512.rank) ∈ dot_S4096x256_S256x512_S4096x512_1_0_0_1_n_n.rhsBatch by decide), dif_pos (show (1 : Fin S256x512.rank) ∈ dot_S4096x256_S256x512_S4096x512_1_0_0_1_n_n.rhsNonContracting by decide)]
  rfl

/-! ## The product, its halves, the result -/

/-- Entry `(p, n)` of the block's product with the table, accumulated from zero. -/
theorem product_apply (x : FVec Ideal S4096x256 .bf16) (w : FVec Ideal S256x512 .bf16) (p : Fin 4096) (n : Fin 512) :
    matmul dot_S4096x256_S256x512_S4096x512_1_0_0_1_n_n none x w (constant S4096x512 .f32 0x00000000#32) (ix2 p n) = ∑ j : Fin 256, x (ix2 p j) * w (ix2 j n) :=
  Cert.Contract.matmul_zero_ix2 dot_S4096x256_S256x512_S4096x512_1_0_0_1_n_n none rfl rfl lhs0 lhs1 rhs0 rhs1 x w p n

/-- Entry `(p, k)` of the left half of a 4096 × 512 matrix is its entry `(p, k)` … -/
theorem half_left (M : S4096x512.Idx → EReal) (h : S4096x512.Slices ![0, 0] S4096x256) (p : Fin 4096) (k : Fin 256) :
    extractStridedSlice (s := S4096x512) S4096x256 ![0, 0] M h (ix2 p k) = M (ix2 p (colL k)) :=
  extractStridedSlice_apply (s := S4096x512) ![0, 0] M h (ix2 p k) (ix2 p (colL k)) (fun a => by
    match a with
    | ⟨0, _⟩ => exact (Nat.zero_add _).symm
    | ⟨1, _⟩ => exact (Nat.zero_add _).symm)

/-- … and of the right half its entry `(p, 256 + k)`. -/
theorem half_right (M : S4096x512.Idx → EReal) (h : S4096x512.Slices ![0, 256] S4096x256) (p : Fin 4096) (k : Fin 256) :
    extractStridedSlice (s := S4096x512) S4096x256 ![0, 256] M h (ix2 p k) = M (ix2 p (colR k)) :=
  extractStridedSlice_apply (s := S4096x512) ![0, 256] M h (ix2 p k) (ix2 p (colR k)) (fun a => by
    match a with
    | ⟨0, _⟩ => exact (Nat.zero_add _).symm
    | ⟨1, _⟩ => rfl)

/-- The body's result at entry `(p, k)` of its block, from the loaded block `x` and the loaded table `w`. -/
theorem payload_apply (x : Vec Ideal S4096x256 .f32) (w : Vec Ideal S256x512 .bf16) (p : Fin 4096) (k : Fin 256) :
    k0_pay1 (F := Ideal) x w (ix2 p k)
      = Ideal.log ((∑ j : Fin 256, x (ix2 p j) * w (ix2 j (colL k))) * (∑ j : Fin 256, x (ix2 p j) * w (ix2 j (colL k)))
          + (∑ j : Fin 256, x (ix2 p j) * w (ix2 j (colR k))) * (∑ j : Fin 256, x (ix2 p j) * w (ix2 j (colR k)))) := by
  unfold k0_pay1
  show Ideal.log (extractStridedSlice (s := S4096x512) S4096x256 ![0, 0] _ _ (ix2 p k) * extractStridedSlice (s := S4096x512) S4096x256 ![0, 0] _ _ (ix2 p k)
      + extractStridedSlice (s := S4096x512) S4096x256 ![0, 256] _ _ (ix2 p k) * extractStridedSlice (s := S4096x512) S4096x256 ![0, 256] _ _ (ix2 p k)) = _
  rw [half_left, half_right, shapeCast_self, product_apply, product_apply]
  rfl

end Cert.KernelIdeal.Body

end
-- ==== Proof.Table.lean ====
/-
  The table the region finds.

  Before the region the program transposes the two argument tables, sets the transposes side by side in one 256 × 512
  table and changes its float format (the identity on the extended reals). So when the region is entered that table holds,
  in row `j`, at column `k` of its left half the first table's entry `(k, j)` and at column `k` of its right half the
  second table's entry `(k, j)`.
-/
import proofs.«107540_j76897094468194_2_alg».proof.Proof.Gen.KernelIdeal.Frame
import proofs.«107540_j76897094468194_2_alg».proof.Proof.Spectrum
import Idealize.ShloMosaic.Lib.StableHlo.Run
import Idealize.ShloMosaic.Lib.ValueIdx

noncomputable section

namespace Cert.KernelIdeal.Table

open Cert.KernelIdeal Cert.KernelIdeal.Gen Idealize.ShloMosaic Idealize.ShloMosaic.TcCoe Idealize.SL.Sem
open Idealize.ShloMosaic.ValueIdx Idealize.ShloMosaic.StableHlo Cert.Spectrum

variable (m : (ℓ : Loc nD τ sig) → Buf (Elt Ideal) ℓ)

/-- The table as the region finds it, as one term of the two argument tables. -/
theorem table_eq (c : Dev nD) :
    (V m c main_v3 : S256x512.Idx → EReal)
      = truncf (F := Ideal) .bf16 (concatenate S256x512 1
          [⟨S256x256, transpose S256x256 [1, 0] (m ((c : Thread nD τ).loc main_arg1)) transposes_S256x256_S256x256_1_0⟩,
           ⟨S256x256, transpose S256x256 [1, 0] (m ((c : Thread nD τ).loc main_arg2)) transposes_S256x256_S256x256_1_0⟩]
          concatenates_S256x256_S256x256_S256x512_d1) bitsLt_bf16_f32 := by
  dsimp only [Gen.V, Gen.hostOps0]; after_results

/-- Row `j`, column `k` of the left half: the first argument table's entry `(k, j)`. -/
theorem table_left (c : Dev nD) (j k : Fin 256) :
    (V m c main_v3 : S256x512.Idx → EReal) (ix2 j (colL k)) = m ((c : Thread nD τ).loc main_arg1) (ix2 k j) := by
  rw [table_eq]
  exact fused_left _ _ transposes_S256x256_S256x256_1_0 concatenates_S256x256_S256x256_S256x512_d1 j (colL k) k rfl

/-- Row `j`, column `k` of the right half: the second argument table's entry `(k, j)`. -/
theorem table_right (c : Dev nD) (j k : Fin 256) :
    (V m c main_v3 : S256x512.Idx → EReal) (ix2 j (colR k)) = m ((c : Thread nD τ).loc main_arg2) (ix2 k j) := by
  rw [table_eq]
  exact fused_right _ _ transposes_S256x256_S256x256_1_0 concatenates_S256x256_S256x256_S256x512_d1 j (colR k) k rfl

end Cert.KernelIdeal.Table

end
-- ==== Proof.Whole.lean ====
/-
  From the blocks to the whole array.

  The grid has 64 points. At point `t` the body is given rows `4096·t … 4096·t + 4095` of the batch (all 256 columns)
  and the whole side-by-side table, and its result is written back as rows `4096·t … 4096·t + 4095` of the output. An
  entry `(p, k)` of that result depends on row `p` of the loaded block — row `4096·t + p` of the batch — and on columns
  `k` and `256 + k` of the table — rows `k` of the two argument tables —: it is the log power spectrum's entry
  `(4096·t + p, k)`. The 64 blocks of 4096 rows tile the 262144 rows, row `r` lying in block `r / 4096`, so the output array
  ends holding the log power spectrum everywhere.
-/
import proofs.«107540_j76897094468194_2_alg».proof.Proof.Gen.KernelIdeal.Value
import proofs.«107540_j76897094468194_2_alg».proof.Proof.Body
import proofs.«107540_j76897094468194_2_alg».proof.Proof.Table
import proofs.«107540_j76897094468194_2_alg».proof.Proof.Spectrum

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Spectrum

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: the batch's and the output's blocks are block `t` of rows and the only block
    of columns; the table's block is the whole table. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 63
    ∧ win0_2.index t (1 : Fin 2) = 0 :=
  (by decide +kernel : ∀ t : Fin grid0.N, _)

/-- Every block of rows is some point's. -/
theorem block_of_rows : ∀ q : Fin 64, ∃ t : Fin cfg0.N, win0_2.index t = ![q.val, 0] :=
  (by decide +kernel : ∀ q : Fin 64, ∃ t : Fin grid0.N, win0_2.index t = ![q.val, 0])

/-- An entry of the body's result is the log power spectrum's entry `i`, when row `y 0` of the loaded block is row `i 0`
    of the batch, the columns agree, and the loaded table holds the two argument tables' rows in its two halves. -/
theorem result_at (x : Vec Ideal S4096x256 .f32) (w : Vec Ideal S256x512 .bf16)
    (X : FVec Ideal Rows .f32) (R I : FVec Ideal Tbl .f32) (i : Rows.Idx) (y : S4096x256.Idx)
    (hx : ∀ j : Fin 256, x (ix2 (y 0) j) = X (ix2 (i 0) j)) (hk : i 1 = y 1)
    (hL : ∀ j k : Fin 256, w (ix2 j (colL k)) = R (ix2 k j)) (hR : ∀ j k : Fin 256, w (ix2 j (colR k)) = I (ix2 k j)) :
    k0_pay1 (F := Ideal) x w y = logPower X R I i := by
  obtain ⟨p, k, rfl⟩ : ∃ (p : Fin 4096) (k : Fin 256), y = ix2 p k := ⟨y 0, y 1, eq_ix2 y⟩
  have hx' : ∀ j : Fin 256, x (ix2 p j) = X (ix2 (i 0) j) := hx
  have hk' : i 1 = k := hk
  rw [Body.payload_apply]
  unfold logPower proj
  simp only [hx', hL, hR, hk']

/-- WHAT POINT `t` WRITES BACK is block `t` of the log power spectrum of the argument arrays. -/
theorem flushed_eq (c : Dev nD) (t : Fin cfg0.N) :
    (dats m 0 c).flushed 2 t = ((cfg0.win 2).blk t).view.read (Elt Ideal)
      (logPower (m ((c : Thread nD τ).loc main_arg0)) (m ((c : Thread nD τ).loc main_arg1)) (m ((c : Thread nD τ).loc main_arg2))) := by
  rw [Value.flushed2]
  unfold out0_2
  rw [View.canon_unit_zero origin]
  simp only [View.ld_unit_zero (S := S4096x256) origin, View.ld_unit_zero (S := S256x512) origin]
  obtain ⟨e0, e1, e2, e3, e4, e5⟩ := block_indices t
  funext y
  show k0_pay1 (iblk m c 0 t) (iblk m c 1 t) y = logPower (m ((c : Thread nD τ).loc main_arg0)) (m ((c : Thread nD τ).loc main_arg1)) (m ((c : Thread nD τ).loc main_arg2)) (((cfg0.win 2).blk t).view.emb y)
  refine result_at (iblk m c 0 t) (iblk m c 1 t) (m ((c : Thread nD τ).loc main_arg0)) (m ((c : Thread nD τ).loc main_arg1)) (m ((c : Thread nD τ).loc main_arg2))
    (((cfg0.win 2).blk t).view.emb y) y (fun j => ?_) ?_ (fun j k => ?_) (fun j k => ?_)
  · -- the batch's block: row `y 0` of block `t` is row `4096·t + y 0` of the batch
    show V m c main_arg0 (((cfg0.win 0).blk t).view.emb (ix2 (y 0) j)) = _
    rw [V_main_arg0]
    refine congrArg (m ((c : Thread nD τ).loc main_arg0)) (funext fun a => Fin.ext ?_)
    match a with
    | ⟨0, _⟩ => show win0_0.index t (0 : Fin 2) * 4096 + 1 * (y 0).val = win0_2.index t (0 : Fin 2) * 4096 + 1 * (y 0).val; omega
    | ⟨1, _⟩ => show win0_0.index t (1 : Fin 2) * 256 + 1 * j.val = j.val; omega
  · -- the output's block has all the columns
    refine Fin.ext ?_
    show win0_2.index t (1 : Fin 2) * 256 + 1 * (y 1).val = (y 1).val
    omega
  · -- the table's block is the whole table: its left half
    show V m c main_v3 (((cfg0.win 1).blk t).view.emb (ix2 j (colL k))) = _
    rw [← Table.table_left m c j k]
    refine congrArg (V m c main_v3) (funext fun a => Fin.ext ?_)
    match a with
    | ⟨0, _⟩ => show win0_1.index t (0 : Fin 2) * 256 + 1 * j.val = j.val; omega
    | ⟨1, _⟩ => show win0_1.index t (1 : Fin 2) * 512 + 1 * (colL k).val = (colL k).val; omega
  · -- and its right half
    show V m c main_v3 (((cfg0.win 1).blk t).view.emb (ix2 j (colR k))) = _
    rw [← Table.table_right m c j k]
    refine congrArg (V m c main_v3) (funext fun a => Fin.ext ?_)
    match a with
    | ⟨0, _⟩ => show win0_1.index t (0 : Fin 2) * 256 + 1 * j.val = j.val; omega
    | ⟨1, _⟩ => show win0_1.index t (1 : Fin 2) * 512 + 1 * (colR k).val = (colR k).val; omega

/-- An index of the output array is in point `t`'s block iff each coordinate is in the block's range on its axis. -/
theorem mem_block (t : Fin cfg0.N) (i : S262144x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v4).slice (win0_2.rect t)).set ↔ _
  rw [View.set_slice_whole, Rect.mem_set_unit]
  exact Iff.rfl

/-- The blocks tile the output array: row `r` is in the block of point `r / 4096`. -/
theorem cover (i : S262144x256.Idx) : ∃ t : Fin cfg0.N, (cfg0.win 2).flush t = true ∧ i ∈ ((cfg0.win 2).blk t).view.set := by
  have hi0 : (i 0).val < 262144 := (i 0).isLt
  have hi1 : (i 1).val < 256 := (i 1).isLt
  obtain ⟨t, ht⟩ := block_of_rows ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega

/-- THE ARRAY after the run is the log power spectrum of the argument arrays. -/
theorem final (c : Dev nD) : (dats m 0 c).arrAt 2 cfg0.N
    = logPower (m ((c : Thread nD τ).loc main_arg0)) (m ((c : Thread nD τ).loc main_arg1)) (m ((c : Thread nD τ).loc main_arg2)) :=
  (dats m 0 c).arrAt_eq_of_cover 2 _ (fun t _ => flushed_eq m c t) cover

/-- The run, read: the output array ends at the log power spectrum of the arguments, the arguments unchanged. -/
theorem run : θ_run defs (onTc (τ := τ) (main (F := Ideal))) ⟨m, fun _ => 0, ρ⟩ fun r => ∀ c : Dev nD,
      r.2.mem ((c : Thread nD τ).loc main_v4)
        = logPower (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceSpectrum.lean ====
/-
  The reference computes the log power spectrum.

  The reference multiplies the batch by each table's transpose — entry `(b, k)` of a product is the sum over `j` of
  `x(b, j)` times the transpose's `(j, k)`, that is, times the table's `(k, j)`: the projection of row `b` on row `k` —,
  squares the two products entry by entry, adds them and takes the logarithm. Read at an index, one operation at a time,
  that is `Spectrum.logPower` word for word once the operand indices are written by their coordinates.
-/
import proofs.«107540_j76897094468194_2_alg».proof.Proof.Gen.ReferenceIdeal.Read
import proofs.«107540_j76897094468194_2_alg».proof.Proof.Spectrum

noncomputable section

namespace Cert.ReferenceIdeal.RefValue

open Cert.ReferenceIdeal Cert.ReferenceIdeal.Read Idealize.ShloMosaic Idealize.ShloMosaic.ValueIdx Cert.Spectrum

/-- In the first product the batch is read at row `b`, column `j`. -/
theorem lidx1 (b : Fin 262144) (k j : Fin 256) : lidx_main_v1 (ix2 b k) j = ix2 b j :=
  funext fun a => Fin.ext (by match a with | ⟨0, _⟩ => rfl | ⟨1, _⟩ => rfl)

/-- … and the transposed first table at `(j, k)`, which is the table at `(k, j)`. -/
theorem ridx1 (b : Fin 262144) (k j : Fin 256) : idx_main_v0 (ridx_main_v1 (ix2 b k) j) = ix2 k j :=
  funext fun a => Fin.ext (by match a with | ⟨0, _⟩ => rfl | ⟨1, _⟩ => rfl)

/-- The same for the second product. -/
theorem lidx3 (b : Fin 262144) (k j : Fin 256) : lidx_main_v3 (ix2 b k) j = ix2 b j :=
  funext fun a => Fin.ext (by match a with | ⟨0, _⟩ => rfl | ⟨1, _⟩ => rfl)

theorem ridx3 (b : Fin 262144) (k j : Fin 256) : idx_main_v2 (ridx_main_v3 (ix2 b k) j) = ix2 k j :=
  funext fun a => Fin.ext (by match a with | ⟨0, _⟩ => rfl | ⟨1, _⟩ => rfl)

/-- The reference's result, as a function of its three arguments, is the log power spectrum. -/
theorem reference_eq (x : (⟨S262144x256, .f32⟩ : BufTy).Contents (Elt Ideal)) (R I : (⟨S256x256, .f32⟩ : BufTy).Contents (Elt Ideal)) :
    val_main_v7 (F := Ideal) x R I = logPower x R I := by
  funext i
  obtain ⟨b, k, rfl⟩ : ∃ (b : Fin 262144) (k : Fin 256), i = ix2 b k := ⟨i 0, i 1, eq_ix2 i⟩
  rw [val_main_v7_apply, val_main_v6_apply, val_main_v4_apply, val_main_v5_apply, val_main_v1_apply, val_main_v3_apply]
  simp only [val_main_v0_apply, val_main_v2_apply, lidx1, ridx1, lidx3, ridx3]
  rfl

end Cert.ReferenceIdeal.RefValue

end
-- ==== Proof.lean ====
/-
  The log power spectrum of a batch of 262144 rows of length 256 against the real and imaginary parts `R`, `I` of a
  256 × 256 transform matrix: the kernel and its reference compute the same function on the extended reals.

  At entry `(b, k)` both produce
      log ((∑ⱼ x(b,j) · R(k,j))² + (∑ⱼ x(b,j) · I(k,j))²).
  The reference multiplies the batch by each table's transpose, squares, adds and takes the logarithm. The kernel first
  sets the two transposes side by side in one 256 × 512 table, then, for each of 64 blocks of 4096 rows, multiplies the
  block by that table once, reads the two projections off columns `k` and `256 + k` of the product, squares, adds and takes
  the logarithm; the 64 blocks tile the rows. The two sums at an entry are the same sum term by term — column `k` of the
  table's left half is row `k` of `R`, column `k` of its right half row `k` of `I` —, the product is accumulated from
  zero (`0 + s = s`), the changes of float format are the identity on the extended reals and the two logarithms are one
  function. Nothing in this uses that an entry is finite, so the precondition is not opened.

  The three frames are the generated ones (the reference's is its generated run with the result dropped); the kernel's
  idealization rewrote no operation, so that conjunct is `True`.
-/
import proofs.«107540_j76897094468194_2_alg».proof.Defs
import proofs.«107540_j76897094468194_2_alg».proof.Proof.Gen.Kernel
import proofs.«107540_j76897094468194_2_alg».proof.Proof.Gen.Kernel.Skeleton
import proofs.«107540_j76897094468194_2_alg».proof.Proof.Gen.Kernel.Launch
import proofs.«107540_j76897094468194_2_alg».proof.Proof.Gen.Kernel.Points
import proofs.«107540_j76897094468194_2_alg».proof.Proof.Gen.Kernel.Frame
import proofs.«107540_j76897094468194_2_alg».proof.Proof.Gen.KernelIdeal
import proofs.«107540_j76897094468194_2_alg».proof.Proof.Gen.KernelIdeal.Skeleton
import proofs.«107540_j76897094468194_2_alg».proof.Proof.Gen.KernelIdeal.Launch
import proofs.«107540_j76897094468194_2_alg».proof.Proof.Gen.KernelIdeal.Points
import proofs.«107540_j76897094468194_2_alg».proof.Proof.Gen.KernelIdeal.Frame
import proofs.«107540_j76897094468194_2_alg».proof.Proof.Gen.ReferenceIdeal
import proofs.«107540_j76897094468194_2_alg».proof.Proof.Gen.Pre_finite_inputs
import proofs.«107540_j76897094468194_2_alg».proof.Proof.Gen.KernelIdeal.Value
import proofs.«107540_j76897094468194_2_alg».proof.Proof.Gen.ReferenceIdeal.Run
import proofs.«107540_j76897094468194_2_alg».proof.Proof.Gen.ReferenceIdeal.Read
import proofs.«107540_j76897094468194_2_alg».proof.Proof.Whole
import proofs.«107540_j76897094468194_2_alg».proof.Proof.ReferenceSpectrum
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments, the kernel's output array and the reference's result both end at the
    log power spectrum of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.ReferenceIdeal.RefValue.reference_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
